-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2048x4096 .f32) (main_arg1 : FVec F S4096x4096 .f32) (main_arg2 : FVec F S4096 .f32) (main_arg3 : FVec F S4096x4096 .f32) (main_arg4 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x4096.size a
  hwx0_0 : ∀ i : grid0.Coords, EltTy.bits .f32 = 32 ∨ (Rect.block (s := S2048x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x4096.size a
  hwx0_4 : ∀ i : grid0.Coords, EltTy.bits .f32 = 32 ∨ (Rect.block (s := S2048x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.BlockTerms.lean ====
/-
  One grid step of the kernel at one entry of its [2048, 1024] output block, on the extended reals.
  A step adds to the block's entry (p, q) the partial dot product of row p of the step's [2048, 256] slice of x with
  row q of the sum of the step's [1024, 256] slices of the two weight matrices: the rounding to bf16 in front of the
  matrix unit is the identity here, and the matrix unit started from a zero block is the plain sum over the 256 columns.
  The first step starts from the zero block; the last one then adds the [1, 1024] bias row to every row of the block.
-/
import proofs.«142296_j31825707664106_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.NoisyLinear

open Cert.KernelIdeal Cert.KernelIdeal.Gen Idealize.ShloMosaic Idealize.ShloMosaic.ValueIdx

local notation "blockDot" => dot_S2048x256_S1024x256_S2048x1024_1_1_0_0_n_n

/-- The block the first step starts from is zero at every entry. -/
theorem zeroBlock_apply (y : S2048x1024.Idx) : k0_pay1 (F := Ideal) y = 0 :=
  Ideal.ofBits_zero_f32

/-- The left factor's row is the output entry's row … -/
theorem blockDot_lhs_row (j : S2048x1024.Idx) (c : (blockDot).contr.Idx) :
    ((blockDot).lhsIdx j c 0).val = (j 0).val := by
  unfold DotDims.lhsIdx
  rw [dif_neg (show ¬(0 : Fin S2048x256.rank) ∈ (blockDot).lhsBatch by decide),
    dif_pos (show (0 : Fin S2048x256.rank) ∈ (blockDot).lhsNonContracting by decide)]
  rfl

/-- … and its column the contracted one; -/
theorem blockDot_lhs_col (j : S2048x1024.Idx) (c : (blockDot).contr.Idx) :
    ((blockDot).lhsIdx j c 1).val = (c ⟨0, by decide⟩).val :=
  (blockDot).lhsIdx_val_of_single rfl j c

/-- the right factor's row is the output entry's column (both factors are contracted along their columns) … -/
theorem blockDot_rhs_row (j : S2048x1024.Idx) (c : (blockDot).contr.Idx) :
    ((blockDot).rhsIdx j c 0).val = (j 1).val := by
  unfold DotDims.rhsIdx
  rw [dif_neg (show ¬(0 : Fin S1024x256.rank) ∈ (blockDot).rhsBatch by decide),
    dif_pos (show (0 : Fin S1024x256.rank) ∈ (blockDot).rhsNonContracting by decide)]
  rfl

/-- … and its column the contracted one. -/
theorem blockDot_rhs_col (j : S2048x1024.Idx) (c : (blockDot).contr.Idx) :
    ((blockDot).rhsIdx j c 1).val = (c ⟨0, by decide⟩).val :=
  (blockDot).rhsIdx_val_of_single rfl j c

/-- The matrix unit started from the zero block, at entry (p, q): the sum over the 256 columns of row p of the left
    factor against row q of the right one. -/
theorem blockDot_apply (a : FVec Ideal S2048x256 .bf16) (b : FVec Ideal S1024x256 .bf16) (p : Fin 2048) (q : Fin 1024) :
    matmul (blockDot) none a b (constant (F := Ideal) S2048x1024 .f32 0x00000000#32) (ix2 p q)
      = ∑ k : Fin 256, a (ix2 p k) * b (ix2 q k) := by
  refine (Ideal.matmul_constant_zero_apply (blockDot) none a b (ix2 p q)).trans ?_
  rw [← Equiv.sum_comp (contrEquiv1 (blockDot) 256 rfl rfl).symm]
  refine Finset.sum_congr rfl fun k _ => ?_
  have hk := contrEquiv1_symm_val (blockDot) 256 rfl rfl k
  have el : (blockDot).lhsIdx (ix2 p q) ((contrEquiv1 (blockDot) 256 rfl rfl).symm k) = ix2 p k :=
    funext fun d => Fin.ext (by
      match d with
      | ⟨0, _⟩ => exact blockDot_lhs_row _ _
      | ⟨1, _⟩ => exact (blockDot_lhs_col _ _).trans hk)
  have er : (blockDot).rhsIdx (ix2 p q) ((contrEquiv1 (blockDot) 256 rfl rfl).symm k) = ix2 q k :=
    funext fun d => Fin.ext (by
      match d with
      | ⟨0, _⟩ => exact blockDot_rhs_row _ _
      | ⟨1, _⟩ => exact (blockDot_rhs_col _ _).trans hk)
  rw [el, er]

/-- A step at entry (p, q): what the block held, plus the partial dot product over the step's 256 columns. -/
theorem step_apply (x : Vec Ideal S2048x256 .f32) (w wn : Vec Ideal S1024x256 .f32) (acc : Vec Ideal S2048x1024 .f32)
    (p : Fin 2048) (q : Fin 1024) :
    k0_pay2 (F := Ideal) x w wn acc (ix2 p q)
      = acc (ix2 p q) + ∑ k : Fin 256, x (ix2 p k) * (w (ix2 q k) + wn (ix2 q k)) := by
  unfold k0_pay2
  refine (addf_apply _ _ _).trans ?_
  exact congrArg₂ (· + ·) (congrFun (shapeCast_self acc _) _) (blockDot_apply _ _ p q)

/-- The last step's epilogue at entry (p, q): the bias row's entry in column q is added. -/
theorem bias_apply (acc : Vec Ideal S2048x1024 .f32) (b : Vec Ideal S1x1024 .f32) (p : Fin 2048) (q : Fin 1024) :
    k0_pay3 (F := Ideal) acc b (ix2 p q) = acc (ix2 p q) + b (ix2 (0 : Fin 1) q) := by
  unfold k0_pay3
  refine (addf_apply _ _ _).trans ?_
  refine congrArg₂ (· + ·) (congrFun (shapeCast_self acc _) _) ?_
  refine (broadcastTo_apply _ broadcasts_S1x1024_S2048x1024 (ix2 p q) (ix2 (0 : Fin 1) q) fun a => ?_).trans
    (congrFun (shapeCast_self b _) _)
  match a with
  | ⟨0, _⟩ => show (0 : Nat) = if (1 : Nat) = 1 then 0 else _; rw [if_pos rfl]
  | ⟨1, _⟩ => show q.val = if (1024 : Nat) = 1 then 0 else q.val; rw [if_neg (by decide)]

end Cert.NoisyLinear

end
-- ==== Proof.BlockReads.lean ====
/-
  What the kernel's windows hold at grid step t, as entries of the argument arrays.
  The grid is (1, 4, 16), walked row-major, so step t works on column block t / 16 of the output and on reduction
  block t % 16. Its slice of x is rows 0 … 2047 and columns 256 (t % 16) … 256 (t % 16) + 255; its slices of the two
  weight matrices are rows 1024 (t / 16) … + 1023 and the same columns; its slice of the bias row, which the host made
  beforehand as bias + bias_noise laid out as one row of 4096, is columns 1024 (t / 16) … + 1023.
-/
import proofs.«142296_j31825707664106_2_alg».proof.Proof.Gen.KernelIdeal.Frame.Runs
import Idealize.ShloMosaic.Lib.Pipeline.Value
import Idealize.ShloMosaic.Lib.ValueIdx
import Idealize.ShloMosaic.Lib.StableHlo.Run

noncomputable section

namespace Cert.NoisyLinear

open Cert.KernelIdeal Cert.KernelIdeal.Gen Idealize.ShloMosaic Idealize.ShloMosaic.TcCoe Idealize.SL.Sem
open Idealize.ShloMosaic.ValueIdx

/-- Which block of its array each input window is on at step t: x on (0, t % 16), the two weight matrices on
    (t / 16, t % 16), the bias row on (0, t / 16). Decided once over the 64 steps. -/
theorem block_indices : ∀ t : Fin cfg0.N,
    (win0_0.index t (0 : Fin 2) = 0 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = 0 ∧ win0_3.index t (1 : Fin 2) = t.val / 16) :=
  (by decide +kernel : ∀ t : Fin grid0.N, _)

variable (m : (ℓ : Loc nD τ sig) → Buf (Elt Ideal) ℓ)

/-- Entry (p, k) of step t's slice of x is x at row p, column 256 (t % 16) + k. -/
theorem xBlock_apply (c : Dev nD) (t : Fin cfg0.N) (p : Fin 2048) (k : Fin 256) (i : S2048x4096.Idx)
    (h0 : (i 0).val = p.val) (h1 : (i 1).val = 256 * (t.val % 16) + k.val) :
    iblk m c 0 t (ix2 p k) = m ((c : Thread nD τ).loc main_arg0) i := by
  obtain ⟨⟨e0, e1⟩, -, -, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = (i 0).val; rw [e0, h0]; omega
  | ⟨1, _⟩ => show win0_0.index t (1 : Fin 2) * 256 + 1 * k.val = (i 1).val; rw [e1, h1]; omega

/-- Entry (q, k) of step t's slice of the weight matrix is the matrix at row 1024 (t / 16) + q, column
    256 (t % 16) + k. -/
theorem wBlock_apply (c : Dev nD) (t : Fin cfg0.N) (q : Fin 1024) (k : Fin 256) (i : S4096x4096.Idx)
    (h0 : (i 0).val = 1024 * (t.val / 16) + q.val) (h1 : (i 1).val = 256 * (t.val % 16) + k.val) :
    iblk m c 1 t (ix2 q k) = m ((c : Thread nD τ).loc main_arg1) i := by
  obtain ⟨-, ⟨e0, e1⟩, -, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = (i 0).val; rw [e0, h0]; omega
  | ⟨1, _⟩ => show win0_1.index t (1 : Fin 2) * 256 + 1 * k.val = (i 1).val; rw [e1, h1]; omega

/-- The same entry of step t's slice of the weight noise. -/
theorem wnBlock_apply (c : Dev nD) (t : Fin cfg0.N) (q : Fin 1024) (k : Fin 256) (i : S4096x4096.Idx)
    (h0 : (i 0).val = 1024 * (t.val / 16) + q.val) (h1 : (i 1).val = 256 * (t.val % 16) + k.val) :
    iblk m c 2 t (ix2 q k) = m ((c : Thread nD τ).loc main_arg3) i := by
  obtain ⟨-, -, ⟨e0, e1⟩, -⟩ := block_indices t
  unfold iblk
  rw [View.read_apply]
  show V m c main_arg3 _ = _
  rw [V_main_arg3]
  refine congrArg _ (funext fun a => Fin.ext ?_)
  match a with
  | ⟨0, _⟩ => show win0_2.index t (0 : Fin 2) * 1024 + 1 * q.val = (i 0).val; rw [e0, h0]; omega
  | ⟨1, _⟩ => show win0_2.index t (1 : Fin 2) * 256 + 1 * k.val = (i 1).val; rw [e1, h1]; omega

/-- The bias row as the kernel finds it: bias + bias_noise, laid out as one row of 4096. -/
theorem biasRow_eq (c : Dev nD) :
    V m c main_v1 = (shapeCast S1x4096 (addf (F := Ideal) (s := S4096) (φ := .f32)
      (m ((c : Thread nD τ).loc main_arg2)) (m ((c : Thread nD τ).loc main_arg4))) shapeCasts_S4096_S1x4096 : FVec Ideal S1x4096 .f32) := by
  dsimp only [V, hostOps0]
  after_results
  rfl

/-- Entry (0, q) of step t's slice of the bias row is bias + bias_noise at 1024 (t / 16) + q. -/
theorem biasBlock_apply (c : Dev nD) (t : Fin cfg0.N) (q : Fin 1024) (i : S4096.Idx)
    (h0 : (i 0).val = 1024 * (t.val / 16) + q.val) :
    iblk m c 3 t (ix2 (0 : Fin 1) q)
      = addf (F := Ideal) (s := S4096) (φ := .f32) (m ((c : Thread nD τ).loc main_arg2)) (m ((c : Thread nD τ).loc main_arg4)) i := by
  obtain ⟨-, -, -, ⟨e0, e1⟩⟩ := block_indices t
  unfold iblk
  rw [View.read_apply]
  show V m c main_v1 _ = _
  rw [biasRow_eq]
  refine shapeCast_apply _ shapeCasts_S4096_S1x4096 _ i ?_
  rw [Shape.rowMajor_val_one, Shape.rowMajor_val_two]
  show (i 0).val = (win0_3.index t (0 : Fin 2) * 1 + 1 * 0) * 4096 + (win0_3.index t (1 : Fin 2) * 1024 + 1 * q.val)
  rw [e0, e1, h0]; omega

end Cert.NoisyLinear

end
-- ==== Proof.StepTerms.lean ====
/-
  One grid step of the kernel at one entry of its output block, in terms of the argument arrays.
  Step n works on column block n / 16 and reduction block n % 16, so at the block's entry (p, q) it adds
      ∑ k < 256, x (p, 256 (n % 16) + k) · (w (1024 (n / 16) + q, 256 (n % 16) + k) + wn (same)),
  and the last step of a column block then adds (b + bn) (1024 (n / 16) + q).
-/
import proofs.«142296_j31825707664106_2_alg».proof.Proof.BlockTerms
import proofs.«142296_j31825707664106_2_alg».proof.Proof.BlockReads

noncomputable section

namespace Cert.NoisyLinear

open Cert.KernelIdeal Cert.KernelIdeal.Gen Idealize.ShloMosaic Idealize.ShloMosaic.TcCoe Idealize.SL.Sem
open Idealize.ShloMosaic.ValueIdx

/-- Column k of step n's reduction block, as a column of the whole (n is read modulo 16, so this is a column for
    every n). -/
def stepCol (n : ℕ) (k : Fin 256) : Fin 4096 :=
  ⟨256 * (n % 16) + k.val, by have := k.isLt; have := Nat.mod_lt n (show 0 < 16 by decide); omega⟩

/-- Row q of step n's column block of the output, as a row of the weight matrices (n / 16 is read modulo 4, so this
    is a row for every n). -/
def stepRow (n : ℕ) (q : Fin 1024) : Fin 4096 :=
  ⟨1024 * (n / 16 % 4) + q.val, by have := q.isLt; have := Nat.mod_lt (n / 16) (show 0 < 4 by decide); omega⟩

/-- What step n adds at entry (p, q) of the output block. -/
def stepTerm (X : FVec Ideal S2048x4096 .f32) (W WN : FVec Ideal S4096x4096 .f32) (n : ℕ) (p : Fin 2048) (q : Fin 1024) : EReal :=
  ∑ k : Fin 256, X (ix2 p (stepCol n k)) * (W (ix2 (stepRow n q) (stepCol n k)) + WN (ix2 (stepRow n q) (stepCol n k)))

/-- The same as a function of the block's index. -/
def stepAdd (X : FVec Ideal S2048x4096 .f32) (W WN : FVec Ideal S4096x4096 .f32) (n : ℕ) : S2048x1024.Idx → EReal :=
  fun y => stepTerm X W WN n (y 0) (y 1)

variable (m : (ℓ : Loc nD τ sig) → Buf (Elt Ideal) ℓ)

/-- The accumulating step at grid step n, entry (p, q): what the block held plus the step's term. -/
theorem accumulate_apply (c : Dev nD) (n : ℕ) (h : n < cfg0.N) (acc : Vec Ideal S2048x1024 .f32) (p : Fin 2048) (q : Fin 1024) :
    k0_pay2 (F := Ideal) (iblk m c 0 ⟨n, h⟩) (iblk m c 1 ⟨n, h⟩) (iblk m c 2 ⟨n, h⟩) acc (ix2 p q)
      = acc (ix2 p q) + stepTerm (m ((c : Thread nD τ).loc main_arg0)) (m ((c : Thread nD τ).loc main_arg1))
          (m ((c : Thread nD τ).loc main_arg3)) n p q := by
  have hN : n < 64 := lt_of_lt_of_eq h (show cfg0.N = 64 from N_0)
  refine (step_apply _ _ _ acc p q).trans (congrArg (acc (ix2 p q) + ·) ?_)
  refine Finset.sum_congr rfl fun k _ => ?_
  have hx := xBlock_apply m c ⟨n, h⟩ p k (ix2 p (stepCol n k)) rfl rfl
  have hw := wBlock_apply m c ⟨n, h⟩ q k (ix2 (stepRow n q) (stepCol n k))
    (by show 1024 * (n / 16 % 4) + q.val = 1024 * (n / 16) + q.val; omega) rfl
  have hwn := wnBlock_apply m c ⟨n, h⟩ q k (ix2 (stepRow n q) (stepCol n k))
    (by show 1024 * (n / 16 % 4) + q.val = 1024 * (n / 16) + q.val; omega) rfl
  rw [hx, hw, hwn]

/-- The epilogue at grid step n, entry (p, q): bias + bias_noise at the entry's column is added. -/
theorem epilogue_apply (c : Dev nD) (n : ℕ) (h : n < cfg0.N) (acc : Vec Ideal S2048x1024 .f32) (p : Fin 2048) (q : Fin 1024) :
    k0_pay3 (F := Ideal) acc (iblk m c 3 ⟨n, h⟩) (ix2 p q)
      = acc (ix2 p q) + addf (F := Ideal) (s := S4096) (φ := .f32) (m ((c : Thread nD τ).loc main_arg2))
          (m ((c : Thread nD τ).loc main_arg4)) (ix1 (stepRow n q)) := by
  have hN : n < 64 := lt_of_lt_of_eq h (show cfg0.N = 64 from N_0)
  refine (bias_apply acc _ p q).trans (congrArg (acc (ix2 p q) + ·) ?_)
  exact biasBlock_apply m c ⟨n, h⟩ q (ix1 (stepRow n q))
    (by show 1024 * (n / 16 % 4) + q.val = 1024 * (n / 16) + q.val; omega)

end Cert.NoisyLinear

end
-- ==== Proof.Spec.lean ====
/-
  The function both programs compute, entry by entry, on the extended reals:
      out (p, q) = ∑ k < 4096, x (p, k) · (w (q, k) + wn (q, k))  +  (b q + bn q),
  the noisy linear layer x · (w + wn)ᵀ + (b + bn) for x of [2048, 4096], w and wn of [4096, 4096], b and bn of [4096].
-/
import Idealize.ShloMosaic.PureOps.Ideal
import Idealize.ShloMosaic.Lib.ValueIdx

noncomputable section

namespace Cert.NoisyLinear

open Idealize.ShloMosaic Idealize.ShloMosaic.ValueIdx

/-- Entry (p, q) of x · (w + wn)ᵀ + (b + bn). -/
def noisyLinearAt (x : (⟨2, ![2048, 4096]⟩ : Shape).Idx → EReal) (w wn : (⟨2, ![4096, 4096]⟩ : Shape).Idx → EReal)
    (b bn : (⟨1, ![4096]⟩ : Shape).Idx → EReal) (p : Fin 2048) (q : Fin 4096) : EReal :=
  (∑ k : Fin 4096, x (ix2 p k) * (w (ix2 q k) + wn (ix2 q k))) + (b (ix1 q) + bn (ix1 q))

/-- x · (w + wn)ᵀ + (b + bn) as an array of [2048, 4096]. -/
def noisyLinear (x : (⟨2, ![2048, 4096]⟩ : Shape).Idx → EReal) (w wn : (⟨2, ![4096, 4096]⟩ : Shape).Idx → EReal)
    (b bn : (⟨1, ![4096]⟩ : Shape).Idx → EReal) : (⟨2, ![2048, 4096]⟩ : Shape).Idx → EReal :=
  fun i => noisyLinearAt x w wn b bn (i 0) (i 1)

theorem noisyLinear_apply (x : (⟨2, ![2048, 4096]⟩ : Shape).Idx → EReal) (w wn : (⟨2, ![4096, 4096]⟩ : Shape).Idx → EReal)
    (b bn : (⟨1, ![4096]⟩ : Shape).Idx → EReal) (p : Fin 2048) (q : Fin 4096) :
    noisyLinear x w wn b bn (ix2 p q) = noisyLinearAt x w wn b bn p q := rfl

end Cert.NoisyLinear

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.KernelValue.lean ====
/-
  The kernel's output array is x · (w + wn)ᵀ + (b + bn).
  Column block r of the output is built by the 16 consecutive grid steps 16 r … 16 r + 15: the first starts from zero,
  each adds its 256-column partial dot product, and the last then adds the bias. So entry (p, q') of the block ends at
      (0 + ∑ s < 16, ∑ k < 256, x (p, 256 s + k) · (w + wn) (1024 r + q', 256 s + k)) + (b + bn) (1024 r + q'),
  and the 16 blocks of 256 columns are the 4096 columns: regrouping a finite sum needs only that addition is
  commutative and associative, which it is on the extended reals, so no finiteness of the inputs is used.
-/
import proofs.«142296_j31825707664106_2_alg».proof.Proof.Gen.KernelIdeal.Value
import proofs.«142296_j31825707664106_2_alg».proof.Proof.StepTerms
import proofs.«142296_j31825707664106_2_alg».proof.Proof.Spec
import proofs.«142296_j31825707664106_2_alg».proof.Proof.LibBlockSum

noncomputable section

namespace Cert.NoisyLinear

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- At a grid step that is neither the first nor the last of its column block, the kernel only accumulates. -/
theorem step_middle (c : Dev nD) (n : ℕ) (h : n < cfg0.N) (h0 : ¬n % 16 = 0) (h1 : ¬n % 16 = 15) (acc : Vec Ideal S2048x1024 .f32) :
    Value.step4 m c n h acc = k0_pay2 (iblk m c 0 ⟨n, h⟩) (iblk m c 1 ⟨n, h⟩) (iblk m c 2 ⟨n, h⟩) acc := by
  unfold Value.step4
  rw [if_pos ⟨h0, h1⟩]

/-- At the last grid step of a column block it accumulates and then adds the bias row. -/
theorem step_last (c : Dev nD) (n : ℕ) (h : n < cfg0.N) (h1 : n % 16 = 15) (acc : Vec Ideal S2048x1024 .f32) :
    Value.step4 m c n h acc
      = k0_pay3 (k0_pay2 (iblk m c 0 ⟨n, h⟩) (iblk m c 1 ⟨n, h⟩) (iblk m c 2 ⟨n, h⟩) acc) (iblk m c 3 ⟨n, h⟩) := by
  unfold Value.step4
  rw [if_neg (by omega), if_pos (by omega)]

/-- After the first 15 steps of column block r, the block's entry y holds zero plus those steps' terms. -/
theorem partial_fold (c : Dev nD) (r : Fin 4) (h : 16 * r.val + 14 < cfg0.N) (y : S2048x1024.Idx) :
    Pipeline.accAt (Value.reset4 m c) (Value.step4 m c) (16 * r.val) 14 h y
      = 0 + ∑ s ∈ Finset.range 15, stepAdd (m ((c : Thread nD τ).loc main_arg0)) (m ((c : Thread nD τ).loc main_arg1))
          (m ((c : Thread nD τ).loc main_arg3)) (16 * r.val + s) y := by
  refine Pipeline.accAt_add_apply (ι := S2048x1024.Idx) (β := EReal) (Value.reset4 m c) (Value.step4 m c) (fun _ => 0)
    (stepAdd (m ((c : Thread nD τ).loc main_arg0)) (m ((c : Thread nD τ).loc main_arg1)) (m ((c : Thread nD τ).loc main_arg3)))
    (16 * r.val) 14 ?_ ?_ 14 le_rfl h y
  · intro hb y
    obtain ⟨p, q, rfl⟩ : ∃ (p : Fin 2048) (q : Fin 1024), y = ix2 p q := ⟨y 0, y 1, eq_ix2 y⟩
    unfold Value.reset4
    refine (accumulate_apply m c _ hb _ p q).trans ?_
    exact congrArg (· + _) (zeroBlock_apply _)
  · intro n hn acc y hlo hhi
    obtain ⟨p, q, rfl⟩ : ∃ (p : Fin 2048) (q : Fin 1024), y = ix2 p q := ⟨y 0, y 1, eq_ix2 y⟩
    rw [step_middle m c n hn (by omega) (by omega) acc]
    exact accumulate_apply m c n hn acc p q

/-- After all 16 steps of column block r, the block's entry (p, q) holds zero plus the 16 steps' terms, plus
    bias + bias_noise at the entry's column. -/
theorem fold_apply (c : Dev nD) (r : Fin 4) (h : 16 * r.val + 15 < cfg0.N) (p : Fin 2048) (q : Fin 1024) :
    Pipeline.accAt (Value.reset4 m c) (Value.step4 m c) (16 * r.val) 15 h (ix2 p q)
      = (0 + ∑ s ∈ Finset.range 16, stepTerm (m ((c : Thread nD τ).loc main_arg0)) (m ((c : Thread nD τ).loc main_arg1))
          (m ((c : Thread nD τ).loc main_arg3)) (16 * r.val + s) p q)
        + addf (F := Ideal) (s := S4096) (φ := .f32) (m ((c : Thread nD τ).loc main_arg2))
            (m ((c : Thread nD τ).loc main_arg4)) (ix1 (stepRow (16 * r.val + 15) q)) := by
  have hN : cfg0.N = 64 := N_0
  show Pipeline.accAt (Value.reset4 m c) (Value.step4 m c) (16 * r.val) (14 + 1) h (ix2 p q) = _
  rw [Pipeline.accAt_succ, step_last m c _ _ (by omega)]
  refine (epilogue_apply m c _ _ _ p q).trans ?_
  refine congrArg (· + _) ?_
  refine (accumulate_apply m c _ _ _ p q).trans ?_
  rw [partial_fold m c r _ (ix2 p q), Finset.sum_range_succ _ 15, add_assoc]
  rfl

/-- The generated closed form of the kernel's output array is x · (w + wn)ᵀ + (b + bn). -/
theorem kernel_value (c : Dev nD) :
    Value.G4 m c = noisyLinear (m ((c : Thread nD τ).loc main_arg0)) (m ((c : Thread nD τ).loc main_arg1))
      (m ((c : Thread nD τ).loc main_arg3)) (m ((c : Thread nD τ).loc main_arg2)) (m ((c : Thread nD τ).loc main_arg4)) := by
  funext i
  obtain ⟨p, q, rfl⟩ : ∃ (p : Fin 2048) (q : Fin 4096), i = ix2 p q := ⟨i 0, i 1, eq_ix2 i⟩
  have hp := p.isLt
  have hq := q.isLt
  have hN : cfg0.N = 64 := N_0
  have hr : Value.run4Of (ix2 p q) = q.val / 1024 := by
    show 4 * (p.val / 2048 - 0) + 1 * (q.val / 1024 - 0) = _
    have : p.val / 2048 = 0 := by omega
    omega
  have hl : Value.loc4Of (ix2 p q) = ix2 p (⟨q.val % 1024, Nat.mod_lt _ (by decide)⟩ : Fin 1024) := by
    funext a
    apply Fin.ext
    match a with
    | ⟨0, _⟩ => show p.val % 2048 = p.val; omega
    | ⟨1, _⟩ => rfl
  unfold Value.G4
  rw [dif_pos (by rw [hr, hN]; omega), hl]
  have e : ∀ (b : ℕ) (h : b + 15 < cfg0.N) (r : Fin 4) (h' : 16 * r.val + 15 < cfg0.N), b = 16 * r.val →
      Pipeline.accAt (Value.reset4 m c) (Value.step4 m c) b 15 h
        = Pipeline.accAt (Value.reset4 m c) (Value.step4 m c) (16 * r.val) 15 h' := by
    intro b h r h' hb; subst hb; rfl
  rw [e _ _ (⟨q.val / 1024, by omega⟩ : Fin 4) (by rw [hN]; show 16 * (q.val / 1024) + 15 < 64; omega) (by rw [hr]),
    fold_apply, noisyLinear_apply]
  unfold noisyLinearAt
  rw [zero_add]
  refine congrArg₂ (· + ·) ?_ ?_
  · rw [Finset.sum_range, Cert.Lib.sum_blocks 16 256 rfl]
    refine Finset.sum_congr rfl fun s _ => ?_
    unfold stepTerm
    refine Finset.sum_congr rfl fun k _ => ?_
    have hs := s.isLt
    have hc : stepCol (16 * (q.val / 1024) + s.val) k
        = (⟨s.val * 256 + k.val, lt_of_lt_of_eq (Cert.Lib.blk_lt s k) rfl⟩ : Fin 4096) :=
      Fin.ext (by show 256 * ((16 * (q.val / 1024) + s.val) % 16) + k.val = s.val * 256 + k.val; omega)
    have hrow : stepRow (16 * (q.val / 1024) + s.val) (⟨q.val % 1024, Nat.mod_lt _ (by decide)⟩ : Fin 1024) = q :=
      Fin.ext (by show 1024 * ((16 * (q.val / 1024) + s.val) / 16 % 4) + q.val % 1024 = q.val; omega)
    rw [hc, hrow]
  · have hrow : stepRow (16 * (q.val / 1024) + 15) (⟨q.val % 1024, Nat.mod_lt _ (by decide)⟩ : Fin 1024) = q :=
      Fin.ext (by show 1024 * ((16 * (q.val / 1024) + 15) / 16 % 4) + q.val % 1024 = q.val; omega)
    rw [hrow]
    rfl

end Cert.NoisyLinear

end
-- ==== Proof.RefSide.lean ====
/-
  The reference's result is x · (w + wn)ᵀ + (b + bn): its dot_general contracts the columns of x against the columns
  of w + wn, one whole sum over the 4096 columns, and bias + bias_noise is broadcast down the 2048 rows and added.
-/
import proofs.«142296_j31825707664106_2_alg».proof.Proof.Gen.ReferenceIdeal.Read
import proofs.«142296_j31825707664106_2_alg».proof.Proof.Spec

noncomputable section

namespace Cert.NoisyLinear

open Cert.ReferenceIdeal Cert.ReferenceIdeal.Gen Cert.ReferenceIdeal.Read Idealize.ShloMosaic
open Idealize.ShloMosaic.ValueIdx

/-- The reference's last stage, as a function of its five arguments, is the specification. -/
theorem reference_value (x0 : (⟨S2048x4096, .f32⟩ : BufTy).Contents (Elt Ideal))
    (x1 : (⟨S4096x4096, .f32⟩ : BufTy).Contents (Elt Ideal)) (x2 : (⟨S4096, .f32⟩ : BufTy).Contents (Elt Ideal))
    (x3 : (⟨S4096x4096, .f32⟩ : BufTy).Contents (Elt Ideal)) (x4 : (⟨S4096, .f32⟩ : BufTy).Contents (Elt Ideal)) :
    val_main_v5 (F := Ideal) x0 x1 x2 x3 x4 = noisyLinear x0 x1 x3 x2 x4 := by
  funext i
  obtain ⟨p, q, rfl⟩ : ∃ (p : Fin 2048) (q : Fin 4096), i = ix2 p q := ⟨i 0, i 1, eq_ix2 i⟩
  rw [val_main_v5_apply, val_main_v2_apply, val_main_v4_apply, val_main_v3_apply, val_main_v1_apply, noisyLinear_apply]
  unfold noisyLinearAt
  refine congrArg₂ (· + ·) (Finset.sum_congr rfl fun k _ => ?_) ?_
  · rw [val_main_v0_apply]
    have el : lidx_main_v2 (ix2 p q) k = ix2 p k :=
      funext fun a => Fin.ext (by match a with | ⟨0, _⟩ => rfl | ⟨1, _⟩ => rfl)
    have er : ridx_main_v2 (ix2 p q) k = ix2 q k :=
      funext fun a => Fin.ext (by match a with | ⟨0, _⟩ => rfl | ⟨1, _⟩ => rfl)
    rw [el, er]
    rfl
  · have e : idx_main_v3 (idx_main_v4 (ix2 p q)) = ix1 q :=
      funext fun a => Fin.ext (by match a with | ⟨0, _⟩ => rfl)
    rw [e]
    rfl

end Cert.NoisyLinear

end
-- ==== Proof.lean ====
/-
  A noisy linear layer: out = x · (w + wn)ᵀ + (b + bn), for x of [2048, 4096], w and wn of [4096, 4096], b and bn of
  [4096], all f32.

  The kernel tiles the output into four column blocks of [2048, 1024] and the reduction into 16 blocks of 256 columns.
  For each column block it zeroes the block, adds the 16 partial products one after the other — each the matrix unit's
  product of a [2048, 256] slice of x with the [1024, 256] slice of w + wn, both rounded to bf16 first —, and then adds
  the block's slice of b + bn, which the host has prepared as one row. The reference is one whole dot_general over the
  4096 columns plus the broadcast bias.

  On the extended reals the rounding is the identity and the matrix unit's product from a zero block is the plain sum of
  256 products, so entry (p, q) of the kernel's result is
      (0 + ∑ s < 16, ∑ k < 256, x (p, 256 s + k) · (w + wn) (q, 256 s + k)) + (b + bn) q
  and the reference's is
      (∑ k < 4096, x (p, k) · (w + wn) (q, k)) + (b + bn) q.
  The two differ only by a regrouping of one finite sum, which holds in any commutative additive monoid: nothing is
  cancelled or distributed, so the finiteness of the inputs is never used.

  Spec.lean states the function; BlockTerms.lean reads one step's arithmetic at an entry; BlockReads.lean reads the
  windows' slices as entries of the arguments; StepTerms.lean puts the two together; KernelValue.lean unrolls the 16
  steps and regroups the sum (LibBlockSum.lean); RefSide.lean reads the reference. The kernel's and the reference's runs,
  and the three frames, are the generated modules'.
-/
import proofs.«142296_j31825707664106_2_alg».proof.Defs
import proofs.«142296_j31825707664106_2_alg».proof.Proof.Gen.Kernel.Frame
import proofs.«142296_j31825707664106_2_alg».proof.Proof.Gen.KernelIdeal.Value
import proofs.«142296_j31825707664106_2_alg».proof.Proof.Gen.Pre_finite_inputs
import proofs.«142296_j31825707664106_2_alg».proof.Proof.Gen.ReferenceIdeal.Run
import proofs.«142296_j31825707664106_2_alg».proof.Proof.KernelValue
import proofs.«142296_j31825707664106_2_alg».proof.Proof.RefSide
import Idealize.ShloMosaic.Adequacy
import Idealize.ShloMosaic.Init

noncomputable section

namespace Cert.Proof

open Idealize.ShloMosaic Idealize.SL.Sem

/-- The idealized kernel runs to the end without a fault and leaves its arguments as they were: its value run,
    with the result forgotten. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the five arguments, the kernel's output array and the reference's result are both
    x · (w + wn)ᵀ + (b + bn). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v5_eq _ _ _ _ _).trans
    ((Cert.NoisyLinear.reference_value _ _ _ _ _).trans (Cert.NoisyLinear.kernel_value m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
